-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x4096x4096 .f32) (main_arg1 : FVec F S4096x4096 .f32) (main_arg2 : FVec F S16x4096 .f32) (main_arg3 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S16384x4096 : Shape := ⟨2, ![16384, 4096]⟩
abbrev S16384x16 : Shape := ⟨2, ![16384, 16]⟩
abbrev S_ : Shape := ⟨0, ![]⟩
abbrev S2048x2048 : Shape := ⟨2, ![2048, 2048]⟩
abbrev S1024x2048 : Shape := ⟨2, ![1024, 2048]⟩
abbrev S2048x16 : Shape := ⟨2, ![2048, 16]⟩
abbrev S16x1024 : Shape := ⟨2, ![16, 1024]⟩
abbrev S2048x1024 : Shape := ⟨2, ![2048, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S16384x4096, .f32⟩
  | .hbm, ⟨5, _⟩ => ⟨S16384x16, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S16384x4096, .bf16⟩
  | .hbm, ⟨10, _⟩ => ⟨S4096x4096, .bf16⟩
  | .hbm, ⟨11, _⟩ => ⟨S16384x4096, .f32⟩
  | .hbm, ⟨12, _⟩ => ⟨S4x4096x4096, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x16, .f32⟩
  | .local _ .vmem, ⟨5, _⟩ => ⟨S2048x16, .f32⟩
  | .local _ .vmem, ⟨6, _⟩ => ⟨S16x1024, .f32⟩
  | .local _ .vmem, ⟨7, _⟩ => ⟨S16x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x4096x4096_S16384x4096 : S4x4096x4096.ShapeCasts S16384x4096
  bcast_S_S16x4096 : S_.BroadcastsInDim S16x4096 (![] : Fin 0 → Fin S16x4096.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S16384x4096_S4x4096x4096 : S16384x4096.ShapeCasts S4x4096x4096
  dot_S16384x4096_S4096x16_S16384x16_1_0_0_1_n_n_wf : DotDims.WF S16384x4096 S4096x16 S16384x16 [1] [0] [0] [1] [] []
  dot_S2048x2048_S1024x2048_S2048x1024_1_1_0_0_n_n_wf : DotDims.WF S2048x2048 S1024x2048 S2048x1024 [1] [1] [0] [0] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x4096.size a
  hwx0_0 : ∀ i : grid0.Coords, EltTy.bits .bf16 = 32 ∨ (Rect.block (s := S16384x4096) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S16384x16.size a
  hwx0_2 : ∀ i : grid0.Coords, EltTy.bits .f32 = 32 ∨ (Rect.block (s := S16384x16) S2048x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x4096.size a
  hwx0_4 : ∀ i : grid0.Coords, EltTy.bits .f32 = 32 ∨ (Rect.block (s := S16384x4096) S2048x1024.size (cc0_transform_4 i) (hinb0_4 i)).WholeWords (EltTy.packing .f32)

variable [Facts₀]

def dot_S16384x4096_S4096x16_S16384x16_1_0_0_1_n_n : DotDims S16384x4096 S4096x16 S16384x16 where
  lhsContracting := [1]
  rhsContracting := [0]
  lhsNonContracting := [0]
  rhsNonContracting := [1]
  lhsBatch := []
  rhsBatch := []
  wf := dot_S16384x4096_S4096x16_S16384x16_1_0_0_1_n_n_wf
def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v4) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S4x4096x16 : Shape := ⟨3, ![4, 4096, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4x4096x4096, .f32⟩
  | .hbm, ⟨5, _⟩ => ⟨S4x4096x16, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S4096x16_S4x4096x16_2_0_01_1_n_n_wf : DotDims.WF S4x4096x4096 S4096x16 S4x4096x16 [2] [0] [0, 1] [1] [] []
  dot_S4x4096x16_S16x4096_S4x4096x4096_2_0_01_1_n_n_wf : DotDims.WF S4x4096x16 S16x4096 S4x4096x4096 [2] [0] [0, 1] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S4096x16_S4x4096x16_2_0_01_1_n_n : DotDims S4x4096x4096 S4096x16 S4x4096x16 where
  lhsContracting := [2]
  rhsContracting := [0]
  lhsNonContracting := [0, 1]
  rhsNonContracting := [1]
  lhsBatch := []
  rhsBatch := []
  wf := dot_S4x4096x4096_S4096x16_S4x4096x16_2_0_01_1_n_n_wf
def dot_S4x4096x16_S16x4096_S4x4096x4096_2_0_01_1_n_n : DotDims S4x4096x16 S16x4096 S4x4096x4096 where
  lhsContracting := [2]
  rhsContracting := [0]
  lhsNonContracting := [0, 1]
  rhsNonContracting := [1]
  lhsBatch := []
  rhsBatch := []
  wf := dot_S4x4096x16_S16x4096_S4x4096x4096_2_0_01_1_n_n_wf

class Facts : Prop extends Facts₀ where

variable [Facts]
-- ==== Proof.Spec.lean ====
/-
  The result as ONE function of the four argument arrays, over the extended reals.

  With x : [4, 4096, 4096], w : [4096, 4096], a : [16, 4096], b : [4096, 16], entry (g, s, n) of the result is

      ∑ₖ x[g, s, k] · w[n, k]  +  2 · ∑ᵣ (∑ₖ x[g, s, k] · b[k, r]) · a[r, n].

  The second program reaches the same number by another arrangement: the first sum is taken in two halves of
  2048 terms, one after the other on top of a zero, and the factor 2 is folded into a before the sum over r.
  The two arrangements agree on all of the extended reals (no finiteness is needed): a sum over 4096 indices
  is the sum of its two halves, products commute and associate, and multiplication by the finite non-negative
  number 2 distributes over any sum, infinite summands included.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the four arguments; the result has the first one's. -/
abbrev SX : Shape := ⟨3, ![4, 4096, 4096]⟩
abbrev SW : Shape := ⟨2, ![4096, 4096]⟩
abbrev SA : Shape := ⟨2, ![16, 4096]⟩
abbrev SB : Shape := ⟨2, ![4096, 16]⟩

/-- The scale: the single-precision word of 2.0 read as an extended real. -/
def two : EReal := Ideal.ofBits .f32 0x40000000#32

/-- It is the real number 2. -/
theorem two_eq : two = ((2 : ℝ) : EReal) := by
  unfold two
  simp [Ideal.ofBits, Ideal.ieee, -EReal.coe_mul]; norm_num

theorem two_nonneg : 0 ≤ two := by
  rw [two_eq]; exact_mod_cast (by norm_num : (0 : ℝ) ≤ 2)

theorem two_ne_top : two ≠ ⊤ := by
  rw [two_eq]; exact EReal.coe_ne_top _

/-- Row (g, s) of x against column r of b. -/
def proj (x : SX.Idx → EReal) (b : SB.Idx → EReal) (g : Fin 4) (s : Fin 4096) (r : Fin 16) : EReal :=
  ∑ k : Fin 4096, x (ix3 g s k) * b (ix2 k r)

/-- Row (g, s) of x against row n of w. -/
def base (x : SX.Idx → EReal) (w : SW.Idx → EReal) (g : Fin 4) (s : Fin 4096) (n : Fin 4096) : EReal :=
  ∑ k : Fin 4096, x (ix3 g s k) * w (ix2 n k)

/-- The result array. -/
def out (x : SX.Idx → EReal) (w : SW.Idx → EReal) (a : SA.Idx → EReal) (b : SB.Idx → EReal) : SX.Idx → EReal :=
  fun i => base x w (i 0) (i 1) (i 2) + two * ∑ r : Fin 16, proj x b (i 0) (i 1) r * a (ix2 r (i 2))

/-- Multiplication by 2 distributes over a finite sum of extended reals. -/
theorem two_mul_sum {ι : Type} (s : Finset ι) (f : ι → EReal) : two * ∑ i ∈ s, f i = ∑ i ∈ s, two * f i := by
  classical
  induction s using Finset.induction_on with
  | empty => simp
  | insert j s hj ih =>
    rw [Finset.sum_insert hj, Finset.sum_insert hj, EReal.left_distrib_of_nonneg_of_ne_top two_nonneg two_ne_top, ih]

/-- A sum over 4096 indices is the sum over the first 2048 plus the sum over the last 2048. -/
theorem sum_halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- THE LAW that joins the two arrangements, at one entry: the halves on top of a zero, then the sum over r with
    the scale inside, is the whole sum plus the scaled sum over r. -/
theorem join (f : Fin 4096 → EReal) (p a : Fin 16 → EReal) :
    ((0 + ∑ k : Fin 2048, f ⟨k.val, by omega⟩) + ∑ k : Fin 2048, f ⟨2048 + k.val, by omega⟩)
        + ∑ r : Fin 16, p r * (two * a r)
      = (∑ k : Fin 4096, f k) + two * ∑ r : Fin 16, p r * a r := by
  rw [zero_add, sum_halves, two_mul_sum]
  congr 1
  exact Finset.sum_congr rfl fun r _ => mul_left_comm _ _ _

end Cert.Spec

end
-- ==== Proof.RefSide.lean ====
/-
  The reference computes the specification.

  Its seven operations, read one entry at a time: three contractions (x against w over the last axis of both; x
  against b over x's last and b's first axis; that product against a over the rank axis), the constant 2
  broadcast, a product and a sum. Entry (g, s, n) of the result is therefore the specification's, term for term;
  only the names of the operand indices differ.
-/
import proofs.«150952_j24215025615346_2_alg».proof.Proof.Spec
import proofs.«150952_j24215025615346_2_alg».proof.Proof.Gen.ReferenceIdeal.Read

noncomputable section

namespace Cert.RefSide

open Idealize.ShloMosaic Idealize.ShloMosaic.ValueIdx
open Cert.ReferenceIdeal Cert.ReferenceIdeal.Read

/-! The operand indices of the three contractions, by coordinates. -/

theorem lidx0 (i : S4x4096x4096.Idx) (k : Fin 4096) : lidx_main_v0 i k = ix3 (i 0) (i 1) k :=
  funext fun d => Fin.ext (by match d with | ⟨0, _⟩ => rfl | ⟨1, _⟩ => rfl | ⟨2, _⟩ => rfl)
theorem ridx0 (i : S4x4096x4096.Idx) (k : Fin 4096) : ridx_main_v0 i k = ix2 (i 2) k :=
  funext fun d => Fin.ext (by match d with | ⟨0, _⟩ => rfl | ⟨1, _⟩ => rfl)
theorem lidx1 (i : S4x4096x16.Idx) (k : Fin 4096) : lidx_main_v1 i k = ix3 (i 0) (i 1) k :=
  funext fun d => Fin.ext (by match d with | ⟨0, _⟩ => rfl | ⟨1, _⟩ => rfl | ⟨2, _⟩ => rfl)
theorem ridx1 (i : S4x4096x16.Idx) (k : Fin 4096) : ridx_main_v1 i k = ix2 k (i 2) :=
  funext fun d => Fin.ext (by match d with | ⟨0, _⟩ => rfl | ⟨1, _⟩ => rfl)
theorem lidx2 (i : S4x4096x4096.Idx) (k : Fin 16) : lidx_main_v2 i k = ix3 (i 0) (i 1) k :=
  funext fun d => Fin.ext (by match d with | ⟨0, _⟩ => rfl | ⟨1, _⟩ => rfl | ⟨2, _⟩ => rfl)
theorem ridx2 (i : S4x4096x4096.Idx) (k : Fin 16) : ridx_main_v2 i k = ix2 k (i 2) :=
  funext fun d => Fin.ext (by match d with | ⟨0, _⟩ => rfl | ⟨1, _⟩ => rfl)

/-- The reference's last stage is the specification of its four arguments. -/
theorem ref_eq (x : (⟨S4x4096x4096, .f32⟩ : BufTy).Contents (Elt Ideal)) (w : (⟨S4096x4096, .f32⟩ : BufTy).Contents (Elt Ideal))
    (a : (⟨S16x4096, .f32⟩ : BufTy).Contents (Elt Ideal)) (b : (⟨S4096x16, .f32⟩ : BufTy).Contents (Elt Ideal)) :
    val_main_v5 (F := Ideal) x w a b = Cert.Spec.out x w a b := by
  funext i
  rw [val_main_v5_apply, val_main_v0_apply, val_main_v4_apply, val_main_v3_apply, val_main_cst_apply, val_main_v2_apply]
  have inner : ∀ r : Fin 16, val_main_v1 (F := Ideal) x b (lidx_main_v2 i r) = Cert.Spec.proj x b (i 0) (i 1) r := fun r => by
    rw [val_main_v1_apply]
    unfold Cert.Spec.proj
    exact Finset.sum_congr rfl fun k _ => by rw [lidx1, ridx1]; rfl
  simp only [inner, lidx0, ridx0, ridx2]
  rfl

end Cert.RefSide

end
-- ==== Proof.Pieces.lean ====
/-
  What one run of the body leaves behind, as values.

  At an even point (the first of a pair) the body clears the accumulator, adds the product of the point's x and w
  blocks to it, and stores nothing into the result block. At an odd point (the second of a pair) it adds the
  product of its x and w blocks to the accumulator the point before left, and stores into the result block that
  accumulator plus the product of the point's two small blocks.
-/
import proofs.«150952_j24215025615346_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Even point: the accumulator ends at the cleared block plus the product of the x and w blocks. -/
theorem acc_even (c : Dev nD) (i : grid0.Coords) (arg3 : Memref sig .tc .vmem S2048x2048 .bf16) (harg3 : arg3.IsWhole) (arg4 : Memref sig .tc .vmem S1024x2048 .bf16) (harg4 : arg4.IsWhole) (arg5 : Memref sig .tc .vmem S2048x16 .f32) (harg5 : arg5.IsWhole) (arg6 : Memref sig .tc .vmem S16x1024 .f32) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i)
    (x0 : Vec F S2048x2048 .bf16) (x1 : Vec F S1024x2048 .bf16) (x2 : Vec F S2048x16 .f32) (x3 : Vec F S16x1024 .f32) :
    sout0_A_0 c i arg3 harg3 arg4 harg4 arg5 harg5 arg6 harg6 arg7 harg7 arg8 harg8 hc0 hc1 x0 x1 x2 x3 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x2048) hz,
    View.ld_unit_zero (S := S1024x2048) hz]

/-- Odd point: the accumulator ends at what the point before left plus the product of the x and w blocks. -/
theorem acc_odd (c : Dev nD) (i : grid0.Coords) (arg3 : Memref sig .tc .vmem S2048x2048 .bf16) (harg3 : arg3.IsWhole) (arg4 : Memref sig .tc .vmem S1024x2048 .bf16) (harg4 : arg4.IsWhole) (arg5 : Memref sig .tc .vmem S2048x16 .f32) (harg5 : arg5.IsWhole) (arg6 : Memref sig .tc .vmem S16x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x2048 .bf16) (x1 : Vec F S1024x2048 .bf16) (x2 : Vec F S2048x16 .f32) (x3 : Vec F S16x1024 .f32)
    (xs0 : Vec F S2048x1024 .f32) :
    sout0_B_0 c i arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg8.read_unread,
    View.ld_unit_zero (S := S2048x2048) hz, View.ld_unit_zero (S := S1024x2048) hz, View.ld_unit_zero (S := S2048x1024) hz]

/-- Odd point: the result block is stored as that accumulator plus the product of the two small blocks. -/
theorem res_odd (c : Dev nD) (i : grid0.Coords) (arg3 : Memref sig .tc .vmem S2048x2048 .bf16) (harg3 : arg3.IsWhole) (arg4 : Memref sig .tc .vmem S1024x2048 .bf16) (harg4 : arg4.IsWhole) (arg5 : Memref sig .tc .vmem S2048x16 .f32) (harg5 : arg5.IsWhole) (arg6 : Memref sig .tc .vmem S16x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x2048 .bf16) (x1 : Vec F S1024x2048 .bf16) (x2 : Vec F S2048x16 .f32) (x3 : Vec F S16x1024 .f32)
    (xs0 : Vec F S2048x1024 .f32) :
    out0_B_4 c i arg3 harg3 arg4 harg4 arg5 harg5 arg6 harg6 arg7 harg7 arg8 harg8 hc0 hc1 x0 x1 x2 x3 xs0 = k0_pay3 x2 x3 (k0_pay2 xs0 x0 x1) := by
  unfold out0_B_4
  rw [View.read_writes_eq_canon _ _ _ (cover0_B_4 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread,
    View.readCov_unit_zero (S := S2048x1024) _ hz,
    View.ld_unit_zero (S := S2048x2048) hz, View.ld_unit_zero (S := S1024x2048) hz, View.ld_unit_zero (S := S2048x1024) hz,
    View.ld_unit_zero (S := S2048x16) hz, View.ld_unit_zero (S := S16x1024) hz]

end Cert.KernelIdeal.Pieces

end
-- ==== Proof.Steps.lean ====
/-
  What the accumulator and the result block hold after a point, in terms of the point's blocks.

  After an even point the accumulator is the accumulate step applied to the cleared block and the point's x and w
  blocks. After an odd point the result block is the result step applied to the point's two small blocks and to the
  accumulate step of what the point before left in the accumulator and the point's x and w blocks.
-/
import proofs.«150952_j24215025615346_2_alg».proof.Proof.Pieces

set_option maxRecDepth 16384

noncomputable section

namespace Cert.KernelIdeal.Steps

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ) (c : Dev nD)

/-- The point before. -/
def prev (t : Fin cfg0.N) : Fin cfg0.N := ⟨t.val - 1, Nat.lt_of_le_of_lt (Nat.sub_le _ _) t.isLt⟩

/-- After an even point the accumulator is the cleared block plus the product of the point's x and w blocks. -/
theorem even_acc (t : Fin cfg0.N) (h0 : t.val % 2 = 0) :
    (outsAt0 m c t.val t.isLt).2 = k0_pay2 (k0_pay1 (F := F)) (iblk m c 0 t) (iblk m c 1 t) := by
  have h1 : ¬t.val % 2 = 1 := by omega
  rw [outsAt0_A m c t h0 h1]
  dsimp only
  exact acc_even c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- After an odd point the result block is the product of the two small blocks on top of the accumulator, which is
    the product of the point's x and w blocks on top of what the point before left. -/
theorem odd_res (t : Fin cfg0.N) (h1 : t.val % 2 = 1) :
    (outsAt0 m c t.val t.isLt).1
      = k0_pay3 (iblk m c 2 t) (iblk m c 3 t)
          (k0_pay2 ((outsAt0 m c (prev t).val (prev t).isLt).2) (iblk m c 0 t) (iblk m c 1 t)) := by
  have h0 : ¬t.val % 2 = 0 := by omega
  rw [outsAt0_B m c t h0 h1]
  dsimp only
  exact res_odd c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) ((outsAt0 m c (prev t).val (prev t).isLt).2)

end Cert.KernelIdeal.Steps

end
-- ==== Proof.Payload.lean ====
/-
  The body's three stored values, one entry at a time, over the extended reals.

  The cleared block is zero everywhere. The accumulate step adds, at entry (p, q), the sum over the 2048
  contraction indices k of x-block[p, k] · w-block[q, k] (both blocks are contracted over their second axis) to
  the accumulator's entry. The result adds, at (p, q), the sum over the 16 rank indices r of
  left[p, r] · right[r, q]. Changes of float format do nothing here, and a matrix product into a zero
  accumulator is the plain sum.
-/
import proofs.«150952_j24215025615346_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Idealize.ShloMosaic Idealize.ShloMosaic.ValueIdx
open Cert.KernelIdeal Cert.KernelIdeal.Gen

/-! ## The large product: rows of the x block against rows of the w block -/

theorem big_l0 (j : S2048x1024.Idx) (q : dot_S2048x2048_S1024x2048_S2048x1024_1_1_0_0_n_n.contr.Idx) : (dot_S2048x2048_S1024x2048_S2048x1024_1_1_0_0_n_n.lhsIdx j q 0).val = (j 0).val := by
  unfold DotDims.lhsIdx
  rw [dif_neg (show ¬(0 : Fin S2048x2048.rank) ∈ dot_S2048x2048_S1024x2048_S2048x1024_1_1_0_0_n_n.lhsBatch by decide), dif_pos (show (0 : Fin S2048x2048.rank) ∈ dot_S2048x2048_S1024x2048_S2048x1024_1_1_0_0_n_n.lhsNonContracting by decide)]
  rfl
theorem big_l1 (j : S2048x1024.Idx) (q : dot_S2048x2048_S1024x2048_S2048x1024_1_1_0_0_n_n.contr.Idx) : (dot_S2048x2048_S1024x2048_S2048x1024_1_1_0_0_n_n.lhsIdx j q 1).val = (q ⟨0, by decide⟩).val :=
  dot_S2048x2048_S1024x2048_S2048x1024_1_1_0_0_n_n.lhsIdx_val_of_single rfl j q
theorem big_r0 (j : S2048x1024.Idx) (q : dot_S2048x2048_S1024x2048_S2048x1024_1_1_0_0_n_n.contr.Idx) : (dot_S2048x2048_S1024x2048_S2048x1024_1_1_0_0_n_n.rhsIdx j q 0).val = (j 1).val := by
  unfold DotDims.rhsIdx
  rw [dif_neg (show ¬(0 : Fin S1024x2048.rank) ∈ dot_S2048x2048_S1024x2048_S2048x1024_1_1_0_0_n_n.rhsBatch by decide), dif_pos (show (0 : Fin S1024x2048.rank) ∈ dot_S2048x2048_S1024x2048_S2048x1024_1_1_0_0_n_n.rhsNonContracting by decide)]
  rfl
theorem big_r1 (j : S2048x1024.Idx) (q : dot_S2048x2048_S1024x2048_S2048x1024_1_1_0_0_n_n.contr.Idx) : (dot_S2048x2048_S1024x2048_S2048x1024_1_1_0_0_n_n.rhsIdx j q 1).val = (q ⟨0, by decide⟩).val :=
  dot_S2048x2048_S1024x2048_S2048x1024_1_1_0_0_n_n.rhsIdx_val_of_single rfl j q

/-- Into a zero accumulator the large product at (p, q) is ∑ₖ x0[p, k] · x1[q, k]. -/
theorem big_at (x0 : FVec Ideal S2048x2048 .bf16) (x1 : FVec Ideal S1024x2048 .bf16) (p : Fin 2048) (q : Fin 1024) :
    FloatOps.matmul dot_S2048x2048_S1024x2048_S2048x1024_1_1_0_0_n_n none x0 x1 (constant (F := Ideal) S2048x1024 .f32 0x00000000#32) (ix2 p q)
      = ∑ k : Fin 2048, x0 (ix2 p k) * x1 (ix2 q k) := by
  refine (Ideal.matmul_constant_zero_apply dot_S2048x2048_S1024x2048_S2048x1024_1_1_0_0_n_n none x0 x1 (ix2 p q)).trans ?_
  refine (Equiv.sum_comp (contrEquiv1 dot_S2048x2048_S1024x2048_S2048x1024_1_1_0_0_n_n 2048 rfl rfl).symm _).symm.trans ?_
  refine Finset.sum_congr rfl fun k _ => ?_
  have hk := contrEquiv1_symm_val dot_S2048x2048_S1024x2048_S2048x1024_1_1_0_0_n_n 2048 rfl rfl k
  have el : dot_S2048x2048_S1024x2048_S2048x1024_1_1_0_0_n_n.lhsIdx (ix2 p q) ((contrEquiv1 dot_S2048x2048_S1024x2048_S2048x1024_1_1_0_0_n_n 2048 rfl rfl).symm k) = ix2 p k := funext fun d => Fin.ext (by
    match d with
    | ⟨0, _⟩ => exact big_l0 _ _
    | ⟨1, _⟩ => exact (big_l1 _ _).trans hk)
  have er : dot_S2048x2048_S1024x2048_S2048x1024_1_1_0_0_n_n.rhsIdx (ix2 p q) ((contrEquiv1 dot_S2048x2048_S1024x2048_S2048x1024_1_1_0_0_n_n 2048 rfl rfl).symm k) = ix2 q k := funext fun d => Fin.ext (by
    match d with
    | ⟨0, _⟩ => exact big_r0 _ _
    | ⟨1, _⟩ => exact (big_r1 _ _).trans hk)
  rw [el, er]

/-! ## The small product: the left block's rows against the right block's columns, over the rank axis -/

theorem small_l0 (j : S2048x1024.Idx) (q : dot_S2048x16_S16x1024_S2048x1024_1_0_0_1_n_n.contr.Idx) : (dot_S2048x16_S16x1024_S2048x1024_1_0_0_1_n_n.lhsIdx j q 0).val = (j 0).val := by
  unfold DotDims.lhsIdx
  rw [dif_neg (show ¬(0 : Fin S2048x16.rank) ∈ dot_S2048x16_S16x1024_S2048x1024_1_0_0_1_n_n.lhsBatch by decide), dif_pos (show (0 : Fin S2048x16.rank) ∈ dot_S2048x16_S16x1024_S2048x1024_1_0_0_1_n_n.lhsNonContracting by decide)]
  rfl
theorem small_l1 (j : S2048x1024.Idx) (q : dot_S2048x16_S16x1024_S2048x1024_1_0_0_1_n_n.contr.Idx) : (dot_S2048x16_S16x1024_S2048x1024_1_0_0_1_n_n.lhsIdx j q 1).val = (q ⟨0, by decide⟩).val :=
  dot_S2048x16_S16x1024_S2048x1024_1_0_0_1_n_n.lhsIdx_val_of_single rfl j q
theorem small_r0 (j : S2048x1024.Idx) (q : dot_S2048x16_S16x1024_S2048x1024_1_0_0_1_n_n.contr.Idx) : (dot_S2048x16_S16x1024_S2048x1024_1_0_0_1_n_n.rhsIdx j q 0).val = (q ⟨0, by decide⟩).val :=
  dot_S2048x16_S16x1024_S2048x1024_1_0_0_1_n_n.rhsIdx_val_of_single rfl j q
theorem small_r1 (j : S2048x1024.Idx) (q : dot_S2048x16_S16x1024_S2048x1024_1_0_0_1_n_n.contr.Idx) : (dot_S2048x16_S16x1024_S2048x1024_1_0_0_1_n_n.rhsIdx j q 1).val = (j 1).val := by
  unfold DotDims.rhsIdx
  rw [dif_neg (show ¬(1 : Fin S16x1024.rank) ∈ dot_S2048x16_S16x1024_S2048x1024_1_0_0_1_n_n.rhsBatch by decide), dif_pos (show (1 : Fin S16x1024.rank) ∈ dot_S2048x16_S16x1024_S2048x1024_1_0_0_1_n_n.rhsNonContracting by decide)]
  rfl

/-- Into a zero accumulator the small product at (p, q) is ∑ᵣ x2[p, r] · x3[r, q]. -/
theorem small_at (x2 : FVec Ideal S2048x16 .f32) (x3 : FVec Ideal S16x1024 .f32) (p : Fin 2048) (q : Fin 1024) :
    FloatOps.matmul dot_S2048x16_S16x1024_S2048x1024_1_0_0_1_n_n (some .fp32) x2 x3 (constant (F := Ideal) S2048x1024 .f32 0x00000000#32) (ix2 p q)
      = ∑ r : Fin 16, x2 (ix2 p r) * x3 (ix2 r q) := by
  refine (Ideal.matmul_constant_zero_apply dot_S2048x16_S16x1024_S2048x1024_1_0_0_1_n_n (some .fp32) x2 x3 (ix2 p q)).trans ?_
  refine (Equiv.sum_comp (contrEquiv1 dot_S2048x16_S16x1024_S2048x1024_1_0_0_1_n_n 16 rfl rfl).symm _).symm.trans ?_
  refine Finset.sum_congr rfl fun r _ => ?_
  have hr := contrEquiv1_symm_val dot_S2048x16_S16x1024_S2048x1024_1_0_0_1_n_n 16 rfl rfl r
  have el : dot_S2048x16_S16x1024_S2048x1024_1_0_0_1_n_n.lhsIdx (ix2 p q) ((contrEquiv1 dot_S2048x16_S16x1024_S2048x1024_1_0_0_1_n_n 16 rfl rfl).symm r) = ix2 p r := funext fun d => Fin.ext (by
    match d with
    | ⟨0, _⟩ => exact small_l0 _ _
    | ⟨1, _⟩ => exact (small_l1 _ _).trans hr)
  have er : dot_S2048x16_S16x1024_S2048x1024_1_0_0_1_n_n.rhsIdx (ix2 p q) ((contrEquiv1 dot_S2048x16_S16x1024_S2048x1024_1_0_0_1_n_n 16 rfl rfl).symm r) = ix2 r q := funext fun d => Fin.ext (by
    match d with
    | ⟨0, _⟩ => exact (small_r0 _ _).trans hr
    | ⟨1, _⟩ => exact small_r1 _ _)
  rw [el, er]

/-! ## The three stored values -/

/-- The cleared block is zero at every entry. -/
theorem clear_at (j : S2048x1024.Idx) : k0_pay1 (F := Ideal) j = 0 := by
  unfold k0_pay1
  simp only [shapeCast_self]
  exact Ideal.ofBits_zero_f32

/-- The accumulate step at (p, q). -/
theorem acc_at (acc : Vec Ideal S2048x1024 .f32) (x0 : Vec Ideal S2048x2048 .bf16) (x1 : Vec Ideal S1024x2048 .bf16)
    (p : Fin 2048) (q : Fin 1024) :
    k0_pay2 (F := Ideal) acc x0 x1 (ix2 p q) = acc (ix2 p q) + ∑ k : Fin 2048, x0 (ix2 p k) * x1 (ix2 q k) := by
  unfold k0_pay2
  simp only [shapeCast_self]
  exact congrArg (acc (ix2 p q) + ·) (big_at x0 x1 p q)

/-- The stored result at (p, q). -/
theorem res_at (x2 : Vec Ideal S2048x16 .f32) (x3 : Vec Ideal S16x1024 .f32) (acc : Vec Ideal S2048x1024 .f32)
    (p : Fin 2048) (q : Fin 1024) :
    k0_pay3 (F := Ideal) x2 x3 acc (ix2 p q) = acc (ix2 p q) + ∑ r : Fin 16, x2 (ix2 p r) * x3 (ix2 r q) := by
  unfold k0_pay3
  simp only [shapeCast_self]
  exact congrArg (acc (ix2 p q) + ·) (small_at x2 x3 p q)

end Cert.KernelIdeal.Payload

end
-- ==== Proof.Blocks.lean ====
/-
  The blocks the body reads, one entry at a time.

  Point t of the 8 × 4 × 2 grid has coordinates (t / 8, t / 2 % 4, t % 2): a row tile of 2048 rows, a column tile of
  1024 columns, and a half of the 4096 contraction indices. The x block at t is rows 2048·(t/8) … and contraction
  indices 2048·(t%2) … of the x array; the w block is rows 1024·(t/2%4) … of the w array over the same half; the
  left small block is the same rows of the left small array; the right small block is the same columns of the right
  small array. An entry of a block is the array's entry at tile index × tile size + the offset inside the block.
-/
import proofs.«150952_j24215025615346_2_alg».proof.Proof.Gen.KernelIdeal.Frame.Runs
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

/-- Row p of row tile I, column q of column tile J, contraction index k of half K, in the whole arrays. -/
def row (I : Fin 8) (p : Fin 2048) : Fin 16384 := ⟨2048 * I.val + p.val, by omega⟩
def col (J : Fin 4) (q : Fin 1024) : Fin 4096 := ⟨1024 * J.val + q.val, by omega⟩
def dep (K : Fin 2) (k : Fin 2048) : Fin 4096 := ⟨2048 * K.val + k.val, by omega⟩

theorem lt64 (t : Fin cfg0.N) : t.val < 64 := lt_of_lt_of_eq t.isLt N_0

/-- The three coordinates of a point. -/
def pI (t : Fin cfg0.N) : Fin 8 := ⟨t.val / 8, by have := lt64 t; omega⟩
def pJ (t : Fin cfg0.N) : Fin 4 := ⟨t.val / 2 % 4, by omega⟩
def pK (t : Fin cfg0.N) : Fin 2 := ⟨t.val % 2, by omega⟩

/-- The windows' block indices at a point, decided over the 64 points. -/
theorem idx_facts : ∀ t : Fin cfg0.N,
    win0_0.index t 0 = t.val / 8 ∧ win0_0.index t 1 = t.val % 2
    ∧ win0_1.index t 0 = t.val / 2 % 4 ∧ win0_1.index t 1 = t.val % 2
    ∧ win0_2.index t 0 = t.val / 8 ∧ win0_2.index t 1 = 0
    ∧ win0_3.index t 0 = 0 ∧ win0_3.index t 1 = t.val / 2 % 4
    ∧ win0_4.index t 0 = t.val / 8 ∧ win0_4.index t 1 = t.val / 2 % 4 :=
  (by decide +kernel : ∀ t : Fin grid0.N,
    win0_0.index t 0 = t.val / 8 ∧ win0_0.index t 1 = t.val % 2
    ∧ win0_1.index t 0 = t.val / 2 % 4 ∧ win0_1.index t 1 = t.val % 2
    ∧ win0_2.index t 0 = t.val / 8 ∧ win0_2.index t 1 = 0
    ∧ win0_3.index t 0 = 0 ∧ win0_3.index t 1 = t.val / 2 % 4
    ∧ win0_4.index t 0 = t.val / 8 ∧ win0_4.index t 1 = t.val / 2 % 4)

variable {F : FTy → Type} [FloatOps F]
variable (m : (ℓ : Loc nD τ sig) → Buf (Elt F) ℓ) (c : Dev nD)

/-- The x block at t, entry (p, k). -/
theorem blkX (t : Fin cfg0.N) (p k : Fin 2048) :
    (iblk m c 0 t : Vec F S2048x2048 .bf16) (ix2 p k)
      = (V m c main_v4 : S16384x4096.Idx → Elt F .bf16) (ix2 (row (pI t) p) (dep (pK t) k)) := by
  unfold iblk
  rw [View.read_apply]
  show V m c main_v4 _ = V m c main_v4 _
  refine congrArg (V m c main_v4) (funext fun d => Fin.ext ?_)
  match d with
  | ⟨0, _⟩ => show win0_0.index t 0 * 2048 + 1 * p.val = 2048 * (t.val / 8) + p.val; rw [(idx_facts t).1]; omega
  | ⟨1, _⟩ => show win0_0.index t 1 * 2048 + 1 * k.val = 2048 * (t.val % 2) + k.val; rw [(idx_facts t).2.1]; omega

/-- The w block at t, entry (q, k). -/
theorem blkW (t : Fin cfg0.N) (q : Fin 1024) (k : Fin 2048) :
    (iblk m c 1 t : Vec F S1024x2048 .bf16) (ix2 q k)
      = (V m c main_v5 : S4096x4096.Idx → Elt F .bf16) (ix2 (col (pJ t) q) (dep (pK t) k)) := by
  unfold iblk
  rw [View.read_apply]
  show V m c main_v5 _ = V m c main_v5 _
  refine congrArg (V m c main_v5) (funext fun d => Fin.ext ?_)
  match d with
  | ⟨0, _⟩ => show win0_1.index t 0 * 1024 + 1 * q.val = 1024 * (t.val / 2 % 4) + q.val; rw [(idx_facts t).2.2.1]; omega
  | ⟨1, _⟩ => show win0_1.index t 1 * 2048 + 1 * k.val = 2048 * (t.val % 2) + k.val; rw [(idx_facts t).2.2.2.1]; omega

/-- The left small block at t, entry (p, r). -/
theorem blkP (t : Fin cfg0.N) (p : Fin 2048) (r : Fin 16) :
    (iblk m c 2 t : Vec F S2048x16 .f32) (ix2 p r)
      = (V m c main_v1 : S16384x16.Idx → Elt F .f32) (ix2 (row (pI t) p) r) := by
  unfold iblk
  rw [View.read_apply]
  show V m c main_v1 _ = V m c main_v1 _
  refine congrArg (V m c main_v1) (funext fun d => Fin.ext ?_)
  match d with
  | ⟨0, _⟩ => show win0_2.index t 0 * 2048 + 1 * p.val = 2048 * (t.val / 8) + p.val; rw [(idx_facts t).2.2.2.2.1]; omega
  | ⟨1, _⟩ => show win0_2.index t 1 * 16 + 1 * r.val = r.val; rw [(idx_facts t).2.2.2.2.2.1]; omega

/-- The right small block at t, entry (r, q). -/
theorem blkA (t : Fin cfg0.N) (r : Fin 16) (q : Fin 1024) :
    (iblk m c 3 t : Vec F S16x1024 .f32) (ix2 r q)
      = (V m c main_v3 : S16x4096.Idx → Elt F .f32) (ix2 r (col (pJ t) q)) := by
  unfold iblk
  rw [View.read_apply]
  show V m c main_v3 _ = V m c main_v3 _
  refine congrArg (V m c main_v3) (funext fun d => Fin.ext ?_)
  match d with
  | ⟨0, _⟩ => show win0_3.index t 0 * 16 + 1 * r.val = r.val; rw [(idx_facts t).2.2.2.2.2.2.1]; omega
  | ⟨1, _⟩ => show win0_3.index t 1 * 1024 + 1 * q.val = 1024 * (t.val / 2 % 4) + q.val; rw [(idx_facts t).2.2.2.2.2.2.2.1]; omega

end Cert.KernelIdeal.Blocks

end
-- ==== Proof.Flat.lean ====
/-
  The specification seen through the flattening of its two leading axes.

  Row r of the [16384, 4096] view is row (r / 4096, r % 4096) of the [4, 4096, 4096] array: both readings have
  the same row-major position. The flattened result is the specification read that way, and un-flattening it
  gives the specification back.
-/
import proofs.«150952_j24215025615346_2_alg».proof.Proof.Spec
import Idealize.ShloMosaic.Lib.Pipeline.Value

noncomputable section

namespace Cert.Spec

open Idealize.ShloMosaic Idealize.ShloMosaic.ValueIdx

/-- The flattened shape. -/
abbrev SF : Shape := ⟨2, ![16384, 4096]⟩

/-- The leading coordinate of flattened row r … -/
def grp (r : Fin 16384) : Fin 4 := ⟨r.val / 4096, by omega⟩
/-- … and the second one. -/
def pos (r : Fin 16384) : Fin 4096 := ⟨r.val % 4096, by omega⟩

/-- The flattened result. -/
def flat (x : SX.Idx → EReal) (w : SW.Idx → EReal) (a : SA.Idx → EReal) (b : SB.Idx → EReal) : SF.Idx → EReal :=
  fun j => out x w a b (ix3 (grp (j 0)) (pos (j 0)) (j 1))

/-- Its entry (r, n), spelled out. -/
theorem flat_at (x : SX.Idx → EReal) (w : SW.Idx → EReal) (a : SA.Idx → EReal) (b : SB.Idx → EReal)
    (r : Fin 16384) (n : Fin 4096) :
    flat x w a b (ix2 r n) = base x w (grp r) (pos r) n + two * ∑ j : Fin 16, proj x b (grp r) (pos r) j * a (ix2 j n) := rfl

/-- An array read through the flattening: entry (r, k) of the flattened x is x at (r / 4096, r % 4096, k). -/
theorem flatten_at (x : SX.Idx → EReal) (h : SX.ShapeCasts SF) (r : Fin 16384) (k : Fin 4096) :
    shapeCast SF x h (ix2 r k) = x (ix3 (grp r) (pos r) k) :=
  shapeCast_apply x h (ix2 r k) (ix3 (grp r) (pos r) k) (by
    rw [Shape.rowMajor_val_three, Shape.rowMajor_val_two]
    show (r.val / 4096 * 4096 + r.val % 4096) * 4096 + k.val = r.val * 4096 + k.val
    omega)

/-- Un-flattening the flattened result gives the result. -/
theorem unflat (x : SX.Idx → EReal) (w : SW.Idx → EReal) (a : SA.Idx → EReal) (b : SB.Idx → EReal) (h : SF.ShapeCasts SX) :
    shapeCast SX (flat x w a b) h = out x w a b := by
  funext i
  have h0 : (i 0).val < 4 := (i 0).isLt
  have h1 : (i 1).val < 4096 := (i 1).isLt
  refine (shapeCast_apply (flat x w a b) h i (ix2 ⟨4096 * (i 0).val + (i 1).val, by omega⟩ (i 2)) (by
    rw [Shape.rowMajor_val_two, Shape.rowMajor_val_three]
    show (4096 * (i 0).val + (i 1).val) * 4096 + (i 2).val = ((i 0).val * 4096 + (i 1).val) * 4096 + (i 2).val
    omega)).trans ?_
  refine congrArg (out x w a b) (funext fun d => Fin.ext ?_)
  match d with
  | ⟨0, _⟩ => show (4096 * (i 0).val + (i 1).val) / 4096 = (i 0).val; omega
  | ⟨1, _⟩ => show (4096 * (i 0).val + (i 1).val) % 4096 = (i 1).val; omega
  | ⟨2, _⟩ => rfl

end Cert.Spec

end
-- ==== Proof.HostPrefix.lean ====
/-
  What the region finds in its four input arrays.

  Before the region the host flattens x to [16384, 4096], contracts the flattened x with b (its last axis against
  b's first), scales a by the constant 2, and changes the float format of the flattened x and of w, which does
  nothing to an extended real. So, at an entry: the x array holds x at the un-flattened row; the w array holds
  w; the left small array holds the row of x against the column of b; the right small array holds 2 · a.
-/
import proofs.«150952_j24215025615346_2_alg».proof.Proof.Flat
import proofs.«150952_j24215025615346_2_alg».proof.Proof.Gen.KernelIdeal.Frame.Runs
import Idealize.ShloMosaic.PureOps.Ideal.Laws
import Idealize.ShloMosaic.Lib.StableHlo.Run

noncomputable section

namespace Cert.KernelIdeal.HostPrefix

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ) (c : Dev nD)

/-- The four arguments as launched, as arrays of extended reals. -/
abbrev aX : Cert.Spec.SX.Idx → EReal := m ((c.tc : Thread nD τ).loc main_arg0)
abbrev aW : Cert.Spec.SW.Idx → EReal := m ((c.tc : Thread nD τ).loc main_arg1)
abbrev aA : Cert.Spec.SA.Idx → EReal := m ((c.tc : Thread nD τ).loc main_arg2)
abbrev aB : Cert.Spec.SB.Idx → EReal := m ((c.tc : Thread nD τ).loc main_arg3)

/-! ## The four arrays as terms of the arguments -/

theorem v4_eq : (V m c main_v4 : S16384x4096.Idx → EReal)
    = shapeCast S16384x4096 (aX m c) shapeCasts_S4x4096x4096_S16384x4096 := by
  show StableHlo.after hostOps0 (fun b => m (c, b)) (Proc.devRef .tc main_v4) = _
  after_results
  rfl

theorem v5_eq : (V m c main_v5 : S4096x4096.Idx → EReal) = aW m c := by
  show StableHlo.after hostOps0 (fun b => m (c, b)) (Proc.devRef .tc main_v5) = _
  after_results
  rfl

theorem v1_eq : (V m c main_v1 : S16384x16.Idx → EReal)
    = Host.dotGeneral (F := Ideal) (φ₁ := .f32) (φ₂ := .f32) dot_S16384x4096_S4096x16_S16384x16_1_0_0_1_n_n (some .fp32)
        (shapeCast S16384x4096 (aX m c) shapeCasts_S4x4096x4096_S16384x4096 : FVec Ideal S16384x4096 .f32)
        (aB m c : FVec Ideal S4096x16 .f32) := by
  show StableHlo.after hostOps0 (fun b => m (c, b)) (Proc.devRef .tc main_v1) = _
  after_results
  rfl

theorem v3_eq : (V m c main_v3 : S16x4096.Idx → EReal)
    = mulf (broadcastInDim S16x4096 ![] bcast_S_S16x4096 (constant (F := Ideal) S_ .f32 0x40000000#32))
        (aA m c : FVec Ideal S16x4096 .f32) := by
  show StableHlo.after hostOps0 (fun b => m (c, b)) (Proc.devRef .tc main_v3) = _
  after_results

/-! ## The same at an entry -/

/-- The x array at (r, k). -/
theorem X_at (r : Fin 16384) (k : Fin 4096) :
    (V m c main_v4 : S16384x4096.Idx → EReal) (ix2 r k) = aX m c (ix3 (Cert.Spec.grp r) (Cert.Spec.pos r) k) :=
  (congrFun (v4_eq m c) (ix2 r k)).trans (Cert.Spec.flatten_at (aX m c) shapeCasts_S4x4096x4096_S16384x4096 r k)

/-- The w array at (n, k). -/
theorem W_at (n : Fin 4096) (k : Fin 4096) :
    (V m c main_v5 : S4096x4096.Idx → EReal) (ix2 n k) = aW m c (ix2 n k) :=
  congrFun (v5_eq m c) (ix2 n k)

theorem prod_l0 (j : S16384x16.Idx) (q : dot_S16384x4096_S4096x16_S16384x16_1_0_0_1_n_n.contr.Idx) : (dot_S16384x4096_S4096x16_S16384x16_1_0_0_1_n_n.lhsIdx j q 0).val = (j 0).val := by
  unfold DotDims.lhsIdx
  rw [dif_neg (show ¬(0 : Fin S16384x4096.rank) ∈ dot_S16384x4096_S4096x16_S16384x16_1_0_0_1_n_n.lhsBatch by decide), dif_pos (show (0 : Fin S16384x4096.rank) ∈ dot_S16384x4096_S4096x16_S16384x16_1_0_0_1_n_n.lhsNonContracting by decide)]
  rfl
theorem prod_l1 (j : S16384x16.Idx) (q : dot_S16384x4096_S4096x16_S16384x16_1_0_0_1_n_n.contr.Idx) : (dot_S16384x4096_S4096x16_S16384x16_1_0_0_1_n_n.lhsIdx j q 1).val = (q ⟨0, by decide⟩).val :=
  dot_S16384x4096_S4096x16_S16384x16_1_0_0_1_n_n.lhsIdx_val_of_single rfl j q
theorem prod_r0 (j : S16384x16.Idx) (q : dot_S16384x4096_S4096x16_S16384x16_1_0_0_1_n_n.contr.Idx) : (dot_S16384x4096_S4096x16_S16384x16_1_0_0_1_n_n.rhsIdx j q 0).val = (q ⟨0, by decide⟩).val :=
  dot_S16384x4096_S4096x16_S16384x16_1_0_0_1_n_n.rhsIdx_val_of_single rfl j q
theorem prod_r1 (j : S16384x16.Idx) (q : dot_S16384x4096_S4096x16_S16384x16_1_0_0_1_n_n.contr.Idx) : (dot_S16384x4096_S4096x16_S16384x16_1_0_0_1_n_n.rhsIdx j q 1).val = (j 1).val := by
  unfold DotDims.rhsIdx
  rw [dif_neg (show ¬(1 : Fin S4096x16.rank) ∈ dot_S16384x4096_S4096x16_S16384x16_1_0_0_1_n_n.rhsBatch by decide), dif_pos (show (1 : Fin S4096x16.rank) ∈ dot_S16384x4096_S4096x16_S16384x16_1_0_0_1_n_n.rhsNonContracting by decide)]
  rfl

/-- The left small array at (r, j): row r of the flattened x against column j of b. -/
theorem P_at (r : Fin 16384) (j : Fin 16) :
    (V m c main_v1 : S16384x16.Idx → EReal) (ix2 r j)
      = Cert.Spec.proj (aX m c) (aB m c) (Cert.Spec.grp r) (Cert.Spec.pos r) j := by
  refine (congrFun (v1_eq m c) (ix2 r j)).trans ?_
  simp only [Host.dotGeneral]
  refine (Ideal.dotGeneral_apply dot_S16384x4096_S4096x16_S16384x16_1_0_0_1_n_n (some .fp32) _ _ _ (ix2 r j)).trans ?_
  refine (Equiv.sum_comp (contrEquiv1 dot_S16384x4096_S4096x16_S16384x16_1_0_0_1_n_n 4096 rfl rfl).symm _).symm.trans ?_
  unfold Cert.Spec.proj
  refine Finset.sum_congr rfl fun k _ => ?_
  have hk := contrEquiv1_symm_val dot_S16384x4096_S4096x16_S16384x16_1_0_0_1_n_n 4096 rfl rfl k
  have el : dot_S16384x4096_S4096x16_S16384x16_1_0_0_1_n_n.lhsIdx (ix2 r j) ((contrEquiv1 dot_S16384x4096_S4096x16_S16384x16_1_0_0_1_n_n 4096 rfl rfl).symm k) = ix2 r k := funext fun d => Fin.ext (by
    match d with
    | ⟨0, _⟩ => exact prod_l0 _ _
    | ⟨1, _⟩ => exact (prod_l1 _ _).trans hk)
  have er : dot_S16384x4096_S4096x16_S16384x16_1_0_0_1_n_n.rhsIdx (ix2 r j) ((contrEquiv1 dot_S16384x4096_S4096x16_S16384x16_1_0_0_1_n_n 4096 rfl rfl).symm k) = ix2 k j := funext fun d => Fin.ext (by
    match d with
    | ⟨0, _⟩ => exact (prod_r0 _ _).trans hk
    | ⟨1, _⟩ => exact prod_r1 _ _)
  rw [el, er]
  exact congrArg (· * aB m c (ix2 k j)) (Cert.Spec.flatten_at (aX m c) shapeCasts_S4x4096x4096_S16384x4096 r k)

/-- The right small array at (j, n): twice a. -/
theorem A_at (j : Fin 16) (n : Fin 4096) :
    (V m c main_v3 : S16x4096.Idx → EReal) (ix2 j n) = Cert.Spec.two * aA m c (ix2 j n) :=
  congrFun (v3_eq m c) (ix2 j n)

end Cert.KernelIdeal.HostPrefix

end
-- ==== Proof.PerPoint.lean ====
/-
  What the accumulator and the result block hold after each grid point.

  The 64 points come in pairs (2u, 2u + 1) that share a row tile and a column tile and differ in the half of the
  contraction axis. After the even point the accumulator holds, at (p, q), zero plus the first half of
  ∑ₖ x[row, k] · w[col, k]; after the odd point it holds that plus the second half, and the result block is stored
  as the accumulator plus ∑ᵣ left[row, r] · right[r, col]. By the law of the specification this is the flattened
  specification at (row, col).
-/
import proofs.«150952_j24215025615346_2_alg».proof.Proof.Steps
import proofs.«150952_j24215025615346_2_alg».proof.Proof.Payload
import proofs.«150952_j24215025615346_2_alg».proof.Proof.Blocks
import proofs.«150952_j24215025615346_2_alg».proof.Proof.HostPrefix

set_option maxRecDepth 16384

noncomputable section

namespace Cert.KernelIdeal.PerPoint

open Idealize.ShloMosaic Idealize.ShloMosaic.TcCoe Idealize.SL.Sem Idealize.ShloMosaic.ValueIdx
open Cert.KernelIdeal Cert.KernelIdeal.Gen
open Cert.KernelIdeal.Steps Cert.KernelIdeal.Payload Cert.KernelIdeal.Blocks Cert.KernelIdeal.HostPrefix

variable (m : (ℓ : Loc nD τ sig) → Buf (Elt Ideal) ℓ) (c : Dev nD)

/-- THE VALUE OF A RESULT BLOCK: after an odd point, entry (p, q) of the result block is the flattened specification
    at the point's row tile and column tile. -/
theorem odd_entry (t : Fin cfg0.N) (h1 : t.val % 2 = 1) (p : Fin 2048) (q : Fin 1024) :
    (outsAt0 m c t.val t.isLt).1 (ix2 p q)
      = Cert.Spec.flat (aX m c) (aW m c) (aA m c) (aB m c) (ix2 (row (pI t) p) (col (pJ t) q)) := by
  have hp : (prev t).val % 2 = 0 := by show (t.val - 1) % 2 = 0; omega
  have hI : pI (prev t) = pI t := Fin.ext (by show (t.val - 1) / 8 = t.val / 8; omega)
  have hJ : pJ (prev t) = pJ t := Fin.ext (by show (t.val - 1) / 2 % 4 = t.val / 2 % 4; omega)
  have hK0 : ∀ k : Fin 2048, dep (pK (prev t)) k = ⟨k.val, by omega⟩ := fun k =>
    Fin.ext (by show 2048 * ((t.val - 1) % 2) + k.val = k.val; omega)
  have hK1 : ∀ k : Fin 2048, dep (pK t) k = ⟨2048 + k.val, by omega⟩ := fun k =>
    Fin.ext (by show 2048 * (t.val % 2) + k.val = 2048 + k.val; omega)
  rw [odd_res m c t h1,
    res_at (iblk m c 2 t) (iblk m c 3 t)
      (k0_pay2 ((outsAt0 m c (prev t).val (prev t).isLt).2) (iblk m c 0 t) (iblk m c 1 t)) p q,
    acc_at ((outsAt0 m c (prev t).val (prev t).isLt).2) (iblk m c 0 t) (iblk m c 1 t) p q,
    even_acc m c (prev t) hp,
    acc_at (k0_pay1 (F := Ideal)) (iblk m c 0 (prev t)) (iblk m c 1 (prev t)) p q,
    clear_at (ix2 p q), Cert.Spec.flat_at]
  refine Eq.trans ?_ (Cert.Spec.join
    (fun k : Fin 4096 => aX m c (ix3 (Cert.Spec.grp (row (pI t) p)) (Cert.Spec.pos (row (pI t) p)) k)
      * aW m c (ix2 (col (pJ t) q) k))
    (fun r : Fin 16 => Cert.Spec.proj (aX m c) (aB m c) (Cert.Spec.grp (row (pI t) p)) (Cert.Spec.pos (row (pI t) p)) r)
    (fun r : Fin 16 => aA m c (ix2 r (col (pJ t) q))))
  refine congrArg₂ (· + ·) (congrArg₂ (· + ·) (congrArg (0 + ·) (Finset.sum_congr rfl fun k _ => ?_))
    (Finset.sum_congr rfl fun k _ => ?_)) (Finset.sum_congr rfl fun r _ => ?_)
  · rw [blkX m c (prev t) p k, blkW m c (prev t) q k, hI, hJ, hK0 k, X_at m c, W_at m c]
  · rw [blkX m c t p k, blkW m c t q k, hK1 k, X_at m c, W_at m c]
  · rw [blkP m c t p r, blkA m c t r q, P_at m c, A_at m c]

end Cert.KernelIdeal.PerPoint

end
-- ==== Proof.Final.lean ====
/-
  The result array after the run.

  The result window is written back at the odd points only, and what an odd point writes back is the block of the
  flattened specification at its row tile and column tile. The 32 odd points' blocks tile the [16384, 4096] array:
  entry (r, n) lies in the block of the odd point with row tile r / 2048 and column tile n / 1024. So the array ends
  at the flattened specification; the one host operation after the region un-flattens it, which gives the
  specification.
-/
import proofs.«150952_j24215025615346_2_alg».proof.Proof.PerPoint
import proofs.«150952_j24215025615346_2_alg».proof.Proof.Gen.KernelIdeal.Frame
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen
open Cert.KernelIdeal.Blocks Cert.KernelIdeal.HostPrefix Cert.KernelIdeal.PerPoint

variable (m : (ℓ : Loc nD τ sig) → Buf (Elt Ideal) ℓ) (ρ : Dev nD → PrngReg)

/-- The flattened specification of the launch contents. -/
abbrev res2 (c : Dev nD) : S16384x4096.Idx → EReal := Cert.Spec.flat (aX m c) (aW m c) (aA m c) (aB m c)

/-- The specification of the launch contents. -/
abbrev res (c : Dev nD) : S4x4096x4096.Idx → EReal := Cert.Spec.out (aX m c) (aW m c) (aA m c) (aB m c)

/-- After an odd point, the whole result block, entry by entry. -/
theorem odd_block (c : Dev nD) (t : Fin cfg0.N) (h1 : t.val % 2 = 1) (y : S2048x1024.Idx) :
    (outsAt0 m c t.val t.isLt).1 y = res2 m c (ix2 (row (pI t) (y 0)) (col (pJ t) (y 1))) := by
  obtain ⟨p, q, rfl⟩ : ∃ (p : Fin 2048) (q : Fin 1024), y = ix2 p q := ⟨y 0, y 1, eq_ix2 y⟩
  exact odd_entry m c t h1 p q

/-- What a point writes back is its block of the flattened specification. -/
theorem flushed_eq (c : Dev nD) (t : Fin cfg0.N) (hf : (cfg0.win 4).flush t = true) :
    (dats m 0 c).flushed 4 t = ((cfg0.win 4).blk t).view.read (Elt Ideal) (res2 m c) := by
  have h1 : t.val % 2 = 1 := (flush0_4 t).mp hf
  show (cfg0.win 4).cut (grid0.coords t) ((dats m 0 c).after 4 t) = _
  rw [after0_4]
  funext y
  rw [View.read_apply]
  show (outsAt0 m c t.val t.isLt).1 y = res2 m c (((cfg0.win 4).blk t).view.emb y)
  refine (odd_block m c t h1 y).trans ?_
  refine congrArg (res2 m c) (funext fun d => Fin.ext ?_)
  match d with
  | ⟨0, _⟩ =>
    show 2048 * (t.val / 8) + (y 0).val = win0_4.index t 0 * 2048 + 1 * (y 0).val
    rw [(idx_facts t).2.2.2.2.2.2.2.2.1]; omega
  | ⟨1, _⟩ =>
    show 1024 * (t.val / 2 % 4) + (y 1).val = win0_4.index t 1 * 1024 + 1 * (y 1).val
    rw [(idx_facts t).2.2.2.2.2.2.2.2.2]; omega

/-- An entry of the array is in a point's block iff each coordinate is in the block's range on its axis. -/
theorem mem_blk (t : Fin cfg0.N) (i : S16384x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v6).slice (win0_4.rect t)).set ↔ _
  rw [View.set_slice_whole, Rect.mem_set_unit]
  exact Iff.rfl

/-- Every entry of the array is in the block of an odd point. -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hlt : 8 * ((i 0).val / 2048) + 2 * ((i 1).val / 1024) + 1 < cfg0.N :=
    lt_of_lt_of_eq (by omega : 8 * ((i 0).val / 2048) + 2 * ((i 1).val / 1024) + 1 < 64) N_0.symm
  refine ⟨⟨8 * ((i 0).val / 2048) + 2 * ((i 1).val / 1024) + 1, hlt⟩, (flush0_4 _).mpr (by
    show (8 * ((i 0).val / 2048) + 2 * ((i 1).val / 1024) + 1) % 2 = 1; omega), ?_⟩
  rw [mem_blk]
  intro a
  match a with
  | ⟨0, _⟩ =>
    show win0_4.index ⟨_, hlt⟩ 0 * 2048 ≤ (i 0).val ∧ (i 0).val < win0_4.index ⟨_, hlt⟩ 0 * 2048 + 2048
    rw [(idx_facts ⟨_, hlt⟩).2.2.2.2.2.2.2.2.1]
    show (8 * ((i 0).val / 2048) + 2 * ((i 1).val / 1024) + 1) / 8 * 2048 ≤ (i 0).val
      ∧ (i 0).val < (8 * ((i 0).val / 2048) + 2 * ((i 1).val / 1024) + 1) / 8 * 2048 + 2048
    omega
  | ⟨1, _⟩ =>
    show win0_4.index ⟨_, hlt⟩ 1 * 1024 ≤ (i 1).val ∧ (i 1).val < win0_4.index ⟨_, hlt⟩ 1 * 1024 + 1024
    rw [(idx_facts ⟨_, hlt⟩).2.2.2.2.2.2.2.2.2]
    show (8 * ((i 0).val / 2048) + 2 * ((i 1).val / 1024) + 1) / 2 % 4 * 1024 ≤ (i 1).val
      ∧ (i 1).val < (8 * ((i 0).val / 2048) + 2 * ((i 1).val / 1024) + 1) / 2 % 4 * 1024 + 1024
    omega

/-- The result window's array ends at the flattened specification. -/
theorem final (c : Dev nD) : (dats m 0 c).arrAt 4 cfg0.N = res2 m c :=
  (dats m 0 c).arrAt_eq_of_cover 4 (res2 m c) (flushed_eq m c) cover

/-- The host operation after the region un-flattens it: the result buffer ends at the specification. -/
theorem tail_eq (c : Dev nD) :
    Pipeline.afterTail₀ cfgs (dats m) 0 (V0 m) [hostOps1] c main_v7 = res m c := by
  unfold Pipeline.afterTail₀
  show StableHlo.after hostOps1 _ (Proc.devRef .tc main_v7) = _
  after_results
  have e : Pipeline.withArrays spec0 c (V0 m c) (fun w => (dats m 0 c).arrAt w cfg0.N) (Proc.devRef .tc main_v6) = res2 m c :=
    (Pipeline.withArrays_arr spec0 launch0.win.arr_inj c _ _ 4).trans (final m c)
  refine (congrArg (fun v => shapeCast S4x4096x4096 v shapeCasts_S16384x4096_S4x4096x4096) e).trans ?_
  exact Cert.Spec.unflat (aX m c) (aW m c) (aA m c) (aB m c) shapeCasts_S16384x4096_S4x4096x4096

/-- THE RUN, READ: every weakly fair execution ends with the result buffer at the specification of the launch
    contents and the four arguments unchanged. -/
theorem run : θ_run defs (onTc (τ := τ) (main (F := Ideal))) ⟨m, fun _ => 0, ρ⟩ fun r => ∀ c : Dev nD,
      r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  A low-rank-corrected linear layer: two arrangements of one computation agree on the extended reals.

  With x : [4, 4096, 4096], w : [4096, 4096], a : [16, 4096], b : [4096, 16], both programs compute, at (g, s, n),

      ∑ₖ x[g, s, k] · w[n, k]  +  2 · ∑ᵣ (∑ₖ x[g, s, k] · b[k, r]) · a[r, n].

  The reference does so with three whole contractions, a scaling by 2 and a sum. The kernel flattens x to
  [16384, 4096], forms x·b and 2·a beforehand, and then walks an 8 × 4 × 2 grid of tiles: for each row tile and column
  tile it accumulates the big contraction in two halves of 2048 terms on top of a zero, and at the second half adds
  the product of the two small tiles and writes the tile of the result; a last reshape restores the three axes.
  Changes of float format do nothing to an extended real, so the two differ only in how sums are grouped and in
  where the factor 2 sits, and these agree for all extended reals: no use is made of the inputs being finite.

  The modules: Spec (the function and the law that joins the two arrangements), Flat (the flattening), RefSide
  (the reference is the function), Pieces and Payload (what one run of the body stores, as values), HostPrefix and
  Blocks (the arrays the region finds and the tiles the body reads), PerPoint (the result tile after each pair of
  points), Final (the tiles cover the array; the reshape).
-/
import proofs.«150952_j24215025615346_2_alg».proof.Defs
import proofs.«150952_j24215025615346_2_alg».proof.Proof.Gen.Kernel
import proofs.«150952_j24215025615346_2_alg».proof.Proof.Gen.Kernel.Frame
import proofs.«150952_j24215025615346_2_alg».proof.Proof.Gen.KernelIdeal
import proofs.«150952_j24215025615346_2_alg».proof.Proof.Gen.KernelIdeal.Frame
import proofs.«150952_j24215025615346_2_alg».proof.Proof.Gen.ReferenceIdeal
import proofs.«150952_j24215025615346_2_alg».proof.Proof.Gen.ReferenceIdeal.Run
import proofs.«150952_j24215025615346_2_alg».proof.Proof.Gen.ReferenceIdeal.Read
import proofs.«150952_j24215025615346_2_alg».proof.Proof.Gen.Pre_finite_inputs
import proofs.«150952_j24215025615346_2_alg».proof.Proof.RefSide
import proofs.«150952_j24215025615346_2_alg».proof.Proof.Final
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel as printed and the kernel over the extended reals. -/
theorem preserves : Cert.preserves_Kernel_KernelIdeal := trivial

/-- Both programs end with the result at the one function of the arguments, which agree. -/
theorem algebraic : Cert.algebraic_KernelIdeal_ReferenceIdeal := by
  intro m ρ m' ρ' _ hagree
  refine ⟨fun c => Cert.KernelIdeal.Final.res m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefSide.ref_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
